-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S64x128 .f32) (main_arg5 : FVec F S128 .f32) (main_arg6 : FVec F S128x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S10000x64 : Shape := ⟨2, ![10000, 64]⟩
abbrev S200x128 : Shape := ⟨2, ![200, 128]⟩
abbrev S200x64 : Shape := ⟨2, ![200, 64]⟩
abbrev S1x64 : Shape := ⟨2, ![1, 64]⟩
abbrev S200x10000 : Shape := ⟨2, ![200, 10000]⟩
abbrev S1x128 : Shape := ⟨2, ![1, 128]⟩

abbrev nBuf : Space → Nat
  | .hbm => 16
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x64, .bf16⟩
  | .hbm, ⟨9, _⟩ => ⟨S1x64, .f32⟩
  | .hbm, ⟨10, _⟩ => ⟨S10000x128, .bf16⟩
  | .hbm, ⟨11, _⟩ => ⟨S10000x10000, .bf16⟩
  | .hbm, ⟨12, _⟩ => ⟨S1x128, .f32⟩
  | .hbm, ⟨13, _⟩ => ⟨S10000x128, .bf16⟩
  | .hbm, ⟨14, _⟩ => ⟨S1x128, .f32⟩
  | .hbm, ⟨15, _⟩ => ⟨S10000x128, .f32⟩
  | .local _ .vmem, ⟨0, _⟩ => ⟨S200x128, .f32⟩
  | .local _ .vmem, ⟨1, _⟩ => ⟨S200x128, .f32⟩
  | .local _ .vmem, ⟨2, _⟩ => ⟨S128x64, .f32⟩
  | .local _ .vmem, ⟨3, _⟩ => ⟨S200x64, .bf16⟩
  | .local _ .vmem, ⟨4, _⟩ => ⟨S200x64, .bf16⟩
  | .local _ .vmem, ⟨5, _⟩ => ⟨S200x10000, .f32⟩
  | .local _ .vmem, ⟨6, _⟩ => ⟨S200x10000, .f32⟩
  | .local _ .vmem, ⟨7, _⟩ => ⟨S10000x64, .bf16⟩
  | .local _ .vmem, ⟨8, _⟩ => ⟨S1x64, .f32⟩
  | .local _ .vmem, ⟨9, _⟩ => ⟨S64x128, .f32⟩
  | .local _ .vmem, ⟨10, _⟩ => ⟨S200x128, .bf16⟩
  | .local _ .vmem, ⟨11, _⟩ => ⟨S200x128, .bf16⟩
  | .local _ .vmem, ⟨12, _⟩ => ⟨S200x10000, .bf16⟩
  | .local _ .vmem, ⟨13, _⟩ => ⟨S200x10000, .bf16⟩
  | .local _ .vmem, ⟨14, _⟩ => ⟨S200x10000, .bf16⟩
  | .local _ .vmem, ⟨15, _⟩ => ⟨S200x10000, .bf16⟩
  | .local _ .vmem, ⟨16, _⟩ => ⟨S10000x128, .bf16⟩
  | .local _ .vmem, ⟨17, _⟩ => ⟨S1x128, .f32⟩
  | .local _ .vmem, ⟨18, _⟩ => ⟨S128x128, .f32⟩
  | .local _ .vmem, ⟨19, _⟩ => ⟨S200x128, .bf16⟩
  | .local _ .vmem, ⟨20, _⟩ => ⟨S200x128, .bf16⟩
  | .local _ .vmem, ⟨21, _⟩ => ⟨S200x10000, .bf16⟩
  | .local _ .vmem, ⟨22, _⟩ => ⟨S200x10000, .bf16⟩
  | .local _ .vmem, ⟨23, _⟩ => ⟨S10000x128, .bf16⟩
  | .local _ .vmem, ⟨24, _⟩ => ⟨S1x128, .f32⟩
  | .local _ .vmem, ⟨25, _⟩ => ⟨S200x128, .f32⟩
  | .local _ .vmem, ⟨26, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S200x128_S200x128_0_0 : ∀ a, (![0, 0] : Fin 2 → Nat) a + S200x128.size a ≤ S200x128.size a
  h_S200x128 : 0 < S200x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x128_S64x128_0_0 : ∀ a, (![0, 0] : Fin 2 → Nat) a + S64x128.size a ≤ S64x128.size a
  h_S64x128 : 0 < S64x128.numel
  packedbf16_S200x128_S200x128_0_0 : (Rect.unit (s := S200x128) ![0, 0] S200x128.size inb_S200x128_S200x128_0_0).PackedRows (EltTy.packing .bf16)
  shapeCasts_S128_S1x128 : S128.ShapeCasts S1x128
  shapeCasts_S200x10000_S200x10000 : S200x10000.ShapeCasts S200x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x128_S128x128_0_0 : ∀ a, (![0, 0] : Fin 2 → Nat) a + S128x128.size a ≤ S128x128.size a
  h_S128x128 : 0 < S128x128.numel
  dot_S200x128_S128x64_S200x64_1_0_0_1_n_n_wf : DotDims.WF S200x128 S128x64 S200x64 [1] [0] [0] [1] [] []
  dot_S200x10000_S10000x64_S200x64_1_0_0_1_n_n_wf : DotDims.WF S200x10000 S10000x64 S200x64 [1] [0] [0] [1] [] []
  dot_S200x64_S64x128_S200x128_1_0_0_1_n_n_wf : DotDims.WF S200x64 S64x128 S200x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S10000x128.size a
  hwx0_0 : ∀ i : grid0.Coords, EltTy.bits .f32 = 32 ∨ (Rect.block (s := S10000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .bf16 = 32 ∨ (Rect.block (s := S10000x64) S200x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .bf16 = 32 ∨ (Rect.block (s := S10000x128) S200x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x128.size a ≤ S10000x128.size a
  hwx2_4 : ∀ i : grid2.Coords, EltTy.bits .bf16 = 32 ∨ (Rect.block (s := S10000x128) S200x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x128.size a ≤ S10000x128.size a
  hwx3_3 : ∀ i : grid3.Coords, EltTy.bits .f32 = 32 ∨ (Rect.block (s := S10000x128) S200x128.size (cc3_transform_3 i) (hinb3_3 i)).WholeWords (EltTy.packing .f32)

variable [Facts₀]

def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S200x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S200x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S10000x64 : Shape := ⟨2, ![10000, 64]⟩
abbrev S1x64 : Shape := ⟨2, ![1, 64]⟩
abbrev S_ : Shape := ⟨0, ![]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x128_S10000x128_1_0_0_1_n_n_wf : DotDims.WF S10000x64 S64x128 S10000x128 [1] [0] [0] [1] [] []
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelRun.lean ====
import proofs.«158082_g42769284334190_cont_sun_m_162_2_alg».proof.Proof.Gen.KernelIdeal.Frame

/-!
# The kernel program's run, with the result buffer named

The four pallas_calls and the three reshapes between them run in order; every buffer that outlives a region then holds
what the fold of the segments leaves there (`Gen.W7`). Read at the result buffer and at the eight arguments, this is the
run the value proof starts from: the result at `Gen.W7`'s contents, the arguments as launched.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read of the last thread state: every buffer that outlives a region at the last boundary's contents. -/
abbrev atEnd (c : Dev nD) (s : MemSt nD τ sig (Elt F)) : Prop :=
  ∀ b ∈ Pipeline.ucRefs τ sig, s.mem (((c : Thread nD τ)).1, b) = W7 m ρ c b

set_option backward.isDefEq.respectTransparency.types false in
/-- Every weakly fair execution of the kernel program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' own; nothing else is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      -- each core starts holding its outliving buffers at the launch memory, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := atEnd m ρ)
    (hfin := fun c s' => by
      -- holding every outliving buffer at the last contents, the final memory agrees with them
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Run

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«158082_g42769284334190_cont_sun_m_162_2_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«158082_g42769284334190_cont_sun_m_162_2_alg».proof.Proof.LibPlainDot
import proofs.«158082_g42769284334190_cont_sun_m_162_2_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«158082_g42769284334190_cont_sun_m_162_2_alg».proof.Proof.LibPlainDot
import proofs.«158082_g42769284334190_cont_sun_m_162_2_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.GcnSpec.lean ====
import proofs.«158082_g42769284334190_cont_sun_m_162_2_alg».proof.Proof.LibPlainDot
import proofs.«158082_g42769284334190_cont_sun_m_162_2_alg».proof.Proof.LibRowLayers
import proofs.«158082_g42769284334190_cont_sun_m_162_2_alg».proof.Proof.LibRowTile

/-!
# A three-layer graph convolution with a dense adjacency, as one function of its arguments

With `adj` the `[n, n]` adjacency, a layer sends features `h` to `adj · (h · W) + b`; the first two layers are followed by
the positive part. Writing `s = h · W` for the "support" of a layer, the network is

  s₁ = x · W1,  s₂ = relu (adj · s₁ + b1) · W15,  s₃ = relu (adj · s₂ + b15) · W2,  out = adj · s₃ + b2.

`hidden adj s b w` is the step from one support to the next, `last adj s b` the output layer, `gcn3` the whole network;
all are spelt with the dense steps `rowsTimes`, `reluRow`, `addRow`, entry by entry over the extended reals. The two
steps are stated for any number `r` of adjacency rows, because row `i` of their result only needs row `i` of `adj`
(`hidden_row`, `last_row`): a tile of adjacency rows yields the same rows of the result. `hidden_unit` and `last_unit`
read the vector unit's spelling of the two steps (products into zero accumulators, a one-row bias array repeated down
the tile, the maximum with zeros, changes of float format in between) as `hidden` and `last`.
-/

noncomputable section

namespace Cert.Gcn

open Idealize.ShloMosaic Idealize.ShloMosaic.ValueIdx Cert.Layers Cert.RowTile

variable {r t n f c d e : Nat}

/-- From one layer's support `s` to the next layer's: `relu (adj · s + b) · w`. -/
def hidden (adj : (⟨2, ![r, n]⟩ : Shape).Idx → EReal) (s : (⟨2, ![n, c]⟩ : Shape).Idx → EReal)
    (b : (⟨1, ![c]⟩ : Shape).Idx → EReal) (w : (⟨2, ![c, d]⟩ : Shape).Idx → EReal) : (⟨2, ![r, d]⟩ : Shape).Idx → EReal :=
  rowsTimes (reluRow (rowsTimes adj s) b) w

/-- The last layer, from its support: `adj · s + b`. -/
def last (adj : (⟨2, ![r, n]⟩ : Shape).Idx → EReal) (s : (⟨2, ![n, c]⟩ : Shape).Idx → EReal)
    (b : (⟨1, ![c]⟩ : Shape).Idx → EReal) : (⟨2, ![r, c]⟩ : Shape).Idx → EReal :=
  addRow (rowsTimes adj s) b

/-- The three layers. -/
def gcn3 (x : (⟨2, ![n, f]⟩ : Shape).Idx → EReal) (adj : (⟨2, ![n, n]⟩ : Shape).Idx → EReal)
    (W1 : (⟨2, ![f, c]⟩ : Shape).Idx → EReal) (b1 : (⟨1, ![c]⟩ : Shape).Idx → EReal)
    (W15 : (⟨2, ![c, d]⟩ : Shape).Idx → EReal) (b15 : (⟨1, ![d]⟩ : Shape).Idx → EReal)
    (W2 : (⟨2, ![d, e]⟩ : Shape).Idx → EReal) (b2 : (⟨1, ![e]⟩ : Shape).Idx → EReal) : (⟨2, ![n, e]⟩ : Shape).Idx → EReal :=
  last adj (hidden adj (hidden adj (rowsTimes x W1) b1 W15) b15 W2) b2

/-- Row `p` of `hidden` of a tile of adjacency rows is row `i` of `hidden` of the whole adjacency, when the tile's row
    `p` is the adjacency's row `i`. -/
theorem hidden_row (adj : (⟨2, ![r, n]⟩ : Shape).Idx → EReal) (tile : (⟨2, ![t, n]⟩ : Shape).Idx → EReal)
    (s : (⟨2, ![n, c]⟩ : Shape).Idx → EReal) (b : (⟨1, ![c]⟩ : Shape).Idx → EReal) (w : (⟨2, ![c, d]⟩ : Shape).Idx → EReal)
    (p : Fin t) (i : Fin r) (h : ∀ k : Fin n, tile (ix2 p k) = adj (ix2 i k)) (q : Fin d) :
    hidden tile s b w (ix2 p q) = hidden adj s b w (ix2 i q) :=
  rowsTimes_row _ _ w p i (fun k => reluRow_row _ _ b p i k (rowsTimes_row adj tile s p i h k)) q

/-- The same for the output layer. -/
theorem last_row (adj : (⟨2, ![r, n]⟩ : Shape).Idx → EReal) (tile : (⟨2, ![t, n]⟩ : Shape).Idx → EReal)
    (s : (⟨2, ![n, c]⟩ : Shape).Idx → EReal) (b : (⟨1, ![c]⟩ : Shape).Idx → EReal)
    (p : Fin t) (i : Fin r) (h : ∀ k : Fin n, tile (ix2 p k) = adj (ix2 i k)) (q : Fin c) :
    last tile s b (ix2 p q) = last adj s b (ix2 i q) :=
  addRow_row _ _ b p i q (rowsTimes_row adj tile s p i h q)

/-- The vector unit's spelling of the step between supports, on a tile of `r` adjacency rows. -/
theorem hidden_unit {φ₁ φ₂ φ₃ ψ : FTy} (dA : DotDims ⟨2, ![r, n]⟩ ⟨2, ![n, c]⟩ ⟨2, ![r, c]⟩) (hA : LibPlainDot.Plain dA)
    (dB : DotDims ⟨2, ![r, c]⟩ ⟨2, ![c, d]⟩ ⟨2, ![r, d]⟩) (hB : LibPlainDot.Plain dB) (pA pB : Option ContractPrecision)
    (a : FVec Ideal ⟨2, ![r, n]⟩ φ₁) (s : FVec Ideal ⟨2, ![n, c]⟩ φ₂) (brow : FVec Ideal ⟨2, ![1, c]⟩ .f32)
    (w : FVec Ideal ⟨2, ![c, d]⟩ φ₃) (hb : (⟨2, ![1, c]⟩ : Shape).Broadcasts ⟨2, ![r, c]⟩) (hψ : ψ.bits < FTy.f32.bits) :
    FloatOps.matmul dB pB
        (truncf ψ (maximumf (addf (FloatOps.matmul dA pA a s (constant ⟨2, ![r, c]⟩ .f32 0x00000000#32))
            (broadcastTo ⟨2, ![r, c]⟩ brow hb))
          (broadcast ⟨2, ![r, c]⟩ (Scalar.ofBits (F := Ideal) .f32 0x00000000#32))) hψ)
        w (constant ⟨2, ![r, d]⟩ .f32 0x00000000#32)
      = hidden a s (rowVec brow) w := by
  rw [matmul_zero_eq dB hB, truncf_eq, matmul_zero_eq dA hA, maximumf_addf_bcastRow]
  rfl

/-- The vector unit's spelling of the output layer, on a tile of `r` adjacency rows. -/
theorem last_unit {φ₁ φ₂ : FTy} (dA : DotDims ⟨2, ![r, n]⟩ ⟨2, ![n, c]⟩ ⟨2, ![r, c]⟩) (hA : LibPlainDot.Plain dA)
    (pA : Option ContractPrecision) (a : FVec Ideal ⟨2, ![r, n]⟩ φ₁) (s : FVec Ideal ⟨2, ![n, c]⟩ φ₂)
    (brow : FVec Ideal ⟨2, ![1, c]⟩ .f32) (hb : (⟨2, ![1, c]⟩ : Shape).Broadcasts ⟨2, ![r, c]⟩) :
    addf (FloatOps.matmul dA pA a s (constant ⟨2, ![r, c]⟩ .f32 0x00000000#32)) (broadcastTo ⟨2, ![r, c]⟩ brow hb)
      = last a s (rowVec brow) := by
  rw [matmul_zero_eq dA hA, addf_bcastRow]
  rfl

/-- An array of zeros made by spreading the zero word over a shape reads zero everywhere. -/
theorem zeros_apply (s : Shape) (h : (⟨0, ![]⟩ : Shape).BroadcastsInDim s (![] : Fin 0 → Fin s.rank)) (i : s.Idx) :
    broadcastInDim s ![] h (constant (F := Ideal) ⟨0, ![]⟩ .f32 0x00000000#32) i = 0 := by
  rw [broadcastInDim_apply ![] h _ i ix0 (fun a => a.elim0), constant_apply, Ideal.ofBits_zero_f32]

end Cert.Gcn

end
-- ==== Proof.Region0.lean ====
import proofs.«158082_g42769284334190_cont_sun_m_162_2_alg».proof.Proof.Gen.KernelIdeal.Frame
import proofs.«158082_g42769284334190_cont_sun_m_162_2_alg».proof.Proof.GcnSpec
import Idealize.ShloMosaic.Lib.Pipeline.Value

/-!
# The first pallas_call: the first layer's support

Grid point `t` takes rows `200 t … 200 t + 199` of `x` and the whole of `W1`, and writes the same rows of `x · W1`.
-/

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.RowTile Cert.Gcn

variable (V : (c : Dev nD) → (b : Ref sig .tc) → Buf (Elt Ideal) ((c : Thread nD τ).loc b))

/-- The body's stored value: the tile of rows times the weights. -/
theorem pay (x0 : Vec Ideal S200x128 .f32) (x1 : Vec Ideal S128x64 .f32) : k0_pay1 x0 x1 = rowsTimes x0 x1 := by
  unfold k0_pay1
  exact Layers.matmul_zero_eq (φ₁ := .bf16) (φ₂ := .bf16) _ ⟨rfl, rfl, rfl, rfl, rfl, rfl⟩ none x0 x1

/-- The printed index maps over the grid: the row-tiled windows sit at block `(t, 0)`, the weights at `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the tile of `x` at point `t` is row `200 t + p` of `x`. -/
theorem blk_rows (c : Dev nD) (t : Fin cfg0.N) (p : Fin 200) (k : Fin 128) (r : Fin 10000) (hr : r.val = 200 * t.val + p.val) :
    iblk0 V c 0 t (ix2 p k) = (V c main_arg0 : S10000x128.Idx → EReal) (ix2 r k) := by
  obtain ⟨e0, e1, -⟩ := idx t
  show (V c main_arg0 : S10000x128.Idx → EReal) (((cfg0.win 0).blk t).view.emb (ix2 p k)) = _
  refine congrArg _ (funext fun a => Fin.ext ?_)
  match a with
  | ⟨0, _⟩ => show win0_0.index t (0 : Fin 2) * 200 + 1 * p.val = r.val; rw [e0, hr]; omega
  | ⟨1, _⟩ => show win0_0.index t (1 : Fin 2) * 128 + 1 * k.val = k.val; rw [e1]; omega

/-- The weights' block is the whole of `W1` at every point. -/
theorem blk_weights (c : Dev nD) (t : Fin cfg0.N) : iblk0 V c 1 t = (V c main_arg2 : S128x64.Idx → EReal) := by
  obtain ⟨-, -, e2, e3, -⟩ := idx t
  funext y
  show (V c main_arg2 : S128x64.Idx → EReal) (((cfg0.win 1).blk t).view.emb y) = _
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 64 + 1 * (y 1).val = (y 1).val; rw [e3]; omega

/-- Entry `(p, q)` of the output's block at point `t` sits at `(200 t + p, q)` of the array. -/
theorem out_emb (t : Fin cfg0.N) (p : Fin 200) (q : Fin 64) (r : Fin 10000) (hr : r.val = 200 * t.val + p.val) :
    ((cfg0.win 2).blk t).view.emb (ix2 p q) = (ix2 r q : S10000x64.Idx) := by
  obtain ⟨-, -, -, -, e4, e5⟩ := idx t
  refine funext fun a => Fin.ext ?_
  match a with
  | ⟨0, _⟩ => show win0_2.index t (0 : Fin 2) * 200 + 1 * p.val = r.val; rw [e4, hr]; omega
  | ⟨1, _⟩ => show win0_2.index t (1 : Fin 2) * 64 + 1 * q.val = q.val; rw [e5]; omega

/-- What point `t` writes back is its block of `x · W1`. -/
theorem flushed_eq (c : Dev nD) (t : Fin cfg0.N) :
    (dat0 V c).flushed 2 t = ((cfg0.win 2).blk t).view.read (Elt Ideal)
      (rowsTimes (V c main_arg0 : S10000x128.Idx → EReal) (V c main_arg2 : S128x64.Idx → EReal)) := by
  show (cfg0.win 2).cut (grid0.coords t) ((dat0 V c).after 2 t) = _
  rw [after0_2]
  unfold out0_2
  rw [View.canon_unit_zero zeros2]
  simp only [View.ld_unit_zero (S := S200x128) zeros2, View.ld_unit_zero (S := S128x64) zeros2]
  rw [pay, blk_weights V c t]
  funext j
  obtain ⟨p, q, rfl⟩ : ∃ (p : Fin 200) (q : Fin 64), j = ix2 p q := ⟨j 0, j 1, eq_ix2 j⟩
  have ht : t.val < 50 := t.isLt
  show rowsTimes (iblk0 V c 0 t) (V c main_arg2 : S128x64.Idx → EReal) (ix2 p q)
    = rowsTimes (V c main_arg0 : S10000x128.Idx → EReal) (V c main_arg2 : S128x64.Idx → EReal) (((cfg0.win 2).blk t).view.emb (ix2 p q))
  rw [out_emb t p q ⟨200 * t.val + p.val, by omega⟩ rfl]
  exact rowsTimes_row _ _ _ p _ (fun k => blk_rows V c t p k _ rfl) q

/-- An index of the array lies in point `t`'s block iff its row is one of the block's 200. -/
theorem mem_blk (t : Fin cfg0.N) (i : S10000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v0).slice (win0_2.rect t)).set ↔ _
  rw [View.set_slice_whole, Rect.mem_set_unit]
  exact Iff.rfl

/-- After the region the array holds `x · W1`: the fifty blocks of 200 rows cover it. -/
theorem final (c : Dev nD) :
    (dat0 V c).arrAt 2 cfg0.N = rowsTimes (V c main_arg0 : S10000x128.Idx → EReal) (V c main_arg2 : S128x64.Idx → EReal) :=
  (dat0 V c).arrAt_eq_of_cover 2 _ (fun t _ => flushed_eq V c t) fun i => by
    have h0 : (i 0).val < 10000 := (i 0).isLt
    have h1 : (i 1).val < 64 := (i 1).isLt
    refine ⟨⟨(i 0).val / 200, by show _ < 50; omega⟩, flush0_2 _, ?_⟩
    rw [mem_blk]
    obtain ⟨-, -, -, -, e4, e5⟩ := idx ⟨(i 0).val / 200, by show _ < 50; omega⟩
    intro a
    match a with
    | ⟨0, _⟩ => show win0_2.index _ (0 : Fin 2) * 200 ≤ (i 0).val ∧ (i 0).val < win0_2.index _ (0 : Fin 2) * 200 + 200; rw [e4]; show (i 0).val / 200 * 200 ≤ _ ∧ _ < (i 0).val / 200 * 200 + 200; omega
    | ⟨1, _⟩ => show win0_2.index _ (1 : Fin 2) * 64 ≤ (i 1).val ∧ (i 1).val < win0_2.index _ (1 : Fin 2) * 64 + 64; rw [e5]; omega

end Cert.KernelIdeal.Region0

end
-- ==== Proof.Region1.lean ====
import proofs.«158082_g42769284334190_cont_sun_m_162_2_alg».proof.Proof.Gen.KernelIdeal.Frame
import proofs.«158082_g42769284334190_cont_sun_m_162_2_alg».proof.Proof.GcnSpec
import Idealize.ShloMosaic.Lib.Pipeline.Value

/-!
# The second pallas_call: the first layer and the second layer's support

Grid point `t` takes rows `200 t … 200 t + 199` of `adj` and the whole of the first support `s₁`, of the bias row and of `W15`;
it writes the same rows of `relu (adj · s₁ + b1) · W15` and, beside them, the same rows of `adj` unchanged (a copy in a
narrower float format, which at the ideal instance is the same array).
-/

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.RowTile Cert.Gcn

variable (V : (c : Dev nD) → (b : Ref sig .tc) → Buf (Elt Ideal) ((c : Thread nD τ).loc b))

/-- The stored tile of the second support. -/
theorem pay2 (x0 : Vec Ideal S200x10000 .f32) (x1 : Vec Ideal S10000x64 .bf16) (x2 : Vec Ideal S1x64 .f32) (x3 : Vec Ideal S64x128 .f32) :
    k1_pay2 x0 x1 x2 x3 = hidden (x0 : S200x10000.Idx → EReal) (x1 : S10000x64.Idx → EReal) (rowVec (x2 : S1x64.Idx → EReal)) (x3 : S64x128.Idx → EReal) := by
  unfold k1_pay2 k1_pay1
  simp only [shapeCast_self]
  exact hidden_unit (φ₁ := .bf16) (φ₂ := .bf16) (φ₃ := .bf16) (ψ := .bf16) _ ⟨rfl, rfl, rfl, rfl, rfl, rfl⟩ _ ⟨rfl, rfl, rfl, rfl, rfl, rfl⟩ none none x0 x1 x2 x3 _ _

/-- The stored copy of the adjacency rows. -/
theorem pay1 (x0 : Vec Ideal S200x10000 .f32) : k1_pay1 x0 = x0 := rfl

/-- The printed index maps over the grid: the row-tiled windows sit at block `(t, 0)`, the others at `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the tile of adjacency rows at point `t` is row `200 t + p` of the array. -/
theorem blk_rows (c : Dev nD) (t : Fin cfg1.N) (p : Fin 200) (k : Fin 10000) (r : Fin 10000) (hr : r.val = 200 * t.val + p.val) :
    iblk1 V c 0 t (ix2 p k) = (V c main_arg1 : S10000x10000.Idx → EReal) (ix2 r k) := by
  obtain ⟨a0, a1, s0, s1, b0, b1, w0, w1, o0, o1, c0, c1⟩ := idx t
  show (V c main_arg1 : S10000x10000.Idx → EReal) (((cfg1.win 0).blk t).view.emb (ix2 p k)) = _
  refine congrArg _ (funext fun a => Fin.ext ?_)
  match a with
  | ⟨0, _⟩ => show win1_0.index t (0 : Fin 2) * 200 + 1 * p.val = r.val; rw [a0, hr]; omega
  | ⟨1, _⟩ => show win1_0.index t (1 : Fin 2) * 10000 + 1 * k.val = k.val; rw [a1]; omega

/-- The support's block is the whole of `s₁` at every point. -/
theorem blk_1 (c : Dev nD) (t : Fin cfg1.N) : iblk1 V c 1 t = (V c main_v0 : S10000x64.Idx → EReal) := by
  obtain ⟨a0, a1, s0, s1, b0, b1, w0, w1, o0, o1, c0, c1⟩ := idx t
  funext y
  show (V c main_v0 : S10000x64.Idx → EReal) (((cfg1.win 1).blk t).view.emb y) = _
  refine congrArg _ (funext fun a => Fin.ext ?_)
  match a with
  | ⟨0, _⟩ => show win1_1.index t (0 : Fin 2) * 10000 + 1 * (y 0).val = (y 0).val; rw [s0]; omega
  | ⟨1, _⟩ => show win1_1.index t (1 : Fin 2) * 64 + 1 * (y 1).val = (y 1).val; rw [s1]; omega

/-- The bias row's block is the whole row at every point. -/
theorem blk_2 (c : Dev nD) (t : Fin cfg1.N) : iblk1 V c 2 t = (V c main_v1 : S1x64.Idx → EReal) := by
  obtain ⟨a0, a1, s0, s1, b0, b1, w0, w1, o0, o1, c0, c1⟩ := idx t
  funext y
  show (V c main_v1 : S1x64.Idx → EReal) (((cfg1.win 2).blk t).view.emb y) = _
  refine congrArg _ (funext fun a => Fin.ext ?_)
  match a with
  | ⟨0, _⟩ => show win1_2.index t (0 : Fin 2) * 1 + 1 * (y 0).val = (y 0).val; rw [b0]; omega
  | ⟨1, _⟩ => show win1_2.index t (1 : Fin 2) * 64 + 1 * (y 1).val = (y 1).val; rw [b1]; omega

/-- The weights' block is the whole of `W15` at every point. -/
theorem blk_3 (c : Dev nD) (t : Fin cfg1.N) : iblk1 V c 3 t = (V c main_arg4 : S64x128.Idx → EReal) := by
  obtain ⟨a0, a1, s0, s1, b0, b1, w0, w1, o0, o1, c0, c1⟩ := idx t
  funext y
  show (V c main_arg4 : S64x128.Idx → EReal) (((cfg1.win 3).blk t).view.emb y) = _
  refine congrArg _ (funext fun a => Fin.ext ?_)
  match a with
  | ⟨0, _⟩ => show win1_3.index t (0 : Fin 2) * 64 + 1 * (y 0).val = (y 0).val; rw [w0]; omega
  | ⟨1, _⟩ => show win1_3.index t (1 : Fin 2) * 128 + 1 * (y 1).val = (y 1).val; rw [w1]; omega

/-- Entry `(p, q)` of the output's block at point `t` sits at `(200 t + p, q)` of the array. -/
theorem out_emb4 (t : Fin cfg1.N) (p : Fin 200) (q : Fin 128) (r : Fin 10000) (hr : r.val = 200 * t.val + p.val) :
    ((cfg1.win 4).blk t).view.emb (ix2 p q) = (ix2 r q : S10000x128.Idx) := by
  obtain ⟨a0, a1, s0, s1, b0, b1, w0, w1, o0, o1, c0, c1⟩ := idx t
  refine funext fun a => Fin.ext ?_
  match a with
  | ⟨0, _⟩ => show win1_4.index t (0 : Fin 2) * 200 + 1 * p.val = r.val; rw [o0, hr]; omega
  | ⟨1, _⟩ => show win1_4.index t (1 : Fin 2) * 128 + 1 * q.val = q.val; rw [o1]; omega

/-- Entry `(p, q)` of the output's block at point `t` sits at `(200 t + p, q)` of the array. -/
theorem out_emb5 (t : Fin cfg1.N) (p : Fin 200) (q : Fin 10000) (r : Fin 10000) (hr : r.val = 200 * t.val + p.val) :
    ((cfg1.win 5).blk t).view.emb (ix2 p q) = (ix2 r q : S10000x10000.Idx) := by
  obtain ⟨a0, a1, s0, s1, b0, b1, w0, w1, o0, o1, c0, c1⟩ := idx t
  refine funext fun a => Fin.ext ?_
  match a with
  | ⟨0, _⟩ => show win1_5.index t (0 : Fin 2) * 200 + 1 * p.val = r.val; rw [c0, hr]; omega
  | ⟨1, _⟩ => show win1_5.index t (1 : Fin 2) * 10000 + 1 * q.val = q.val; rw [c1]; omega

/-- What point `t` writes back to the second support is its block of `relu (adj · s₁ + b1) · W15`. -/
theorem flushed4_eq (c : Dev nD) (t : Fin cfg1.N) :
    (dat1 V c).flushed 4 t = ((cfg1.win 4).blk t).view.read (Elt Ideal)
      (hidden (V c main_arg1 : S10000x10000.Idx → EReal) (V c main_v0 : S10000x64.Idx → EReal)
        (rowVec (V c main_v1 : S1x64.Idx → EReal)) (V c main_arg4 : S64x128.Idx → EReal)) := by
  show (cfg1.win 4).cut (grid1.coords t) ((dat1 V c).after 4 t) = _
  rw [after1_4]
  unfold out1_4
  rw [View.canon_unit_zero zeros2]
  simp only [View.ld_unit_zero (S := S200x10000) zeros2, View.ld_unit_zero (S := S10000x64) zeros2,
    View.ld_unit_zero (S := S1x64) zeros2, View.ld_unit_zero (S := S64x128) zeros2]
  rw [pay2, blk_1 V c t, blk_2 V c t, blk_3 V c t]
  funext j
  obtain ⟨p, q, rfl⟩ : ∃ (p : Fin 200) (q : Fin 128), j = ix2 p q := ⟨j 0, j 1, eq_ix2 j⟩
  have ht : t.val < 50 := t.isLt
  show hidden (iblk1 V c 0 t) (V c main_v0 : S10000x64.Idx → EReal) (rowVec (V c main_v1 : S1x64.Idx → EReal))
      (V c main_arg4 : S64x128.Idx → EReal) (ix2 p q)
    = hidden (V c main_arg1 : S10000x10000.Idx → EReal) (V c main_v0 : S10000x64.Idx → EReal)
      (rowVec (V c main_v1 : S1x64.Idx → EReal)) (V c main_arg4 : S64x128.Idx → EReal) (((cfg1.win 4).blk t).view.emb (ix2 p q))
  rw [out_emb4 t p q ⟨200 * t.val + p.val, by omega⟩ rfl]
  exact hidden_row _ _ _ _ _ p _ (fun k => blk_rows V c t p k _ rfl) q

/-- What point `t` writes back to the copy is its block of `adj`. -/
theorem flushed5_eq (c : Dev nD) (t : Fin cfg1.N) :
    (dat1 V c).flushed 5 t = ((cfg1.win 5).blk t).view.read (Elt Ideal) (V c main_arg1 : S10000x10000.Idx → EReal) := by
  show (cfg1.win 5).cut (grid1.coords t) ((dat1 V c).after 5 t) = _
  rw [after1_5]
  unfold out1_5
  rw [View.canon_unit_zero zeros2]
  simp only [View.ld_unit_zero (S := S200x10000) zeros2]
  rw [pay1]
  funext j
  obtain ⟨p, q, rfl⟩ : ∃ (p : Fin 200) (q : Fin 10000), j = ix2 p q := ⟨j 0, j 1, eq_ix2 j⟩
  have ht : t.val < 50 := t.isLt
  show iblk1 V c 0 t (ix2 p q) = (V c main_arg1 : S10000x10000.Idx → EReal) (((cfg1.win 5).blk t).view.emb (ix2 p q))
  rw [out_emb5 t p q ⟨200 * t.val + p.val, by omega⟩ rfl]
  exact blk_rows V c t p q _ rfl

/-- An index of the array lies in point `t`'s block iff, on each axis, it is within the block's extent from the block's offset. -/
theorem mem_blk4 (t : Fin cfg1.N) (i : S10000x128.Idx) :
    i ∈ ((cfg1.win 4).blk t).view.set ↔ ∀ a : Fin 2, win1_4.index t a * S200x128.size a ≤ (i a).val ∧ (i a).val < win1_4.index t a * S200x128.size a + S200x128.size a := by
  show i ∈ ((View.whole main_v2_0).slice (win1_4.rect t)).set ↔ _
  rw [View.set_slice_whole, Rect.mem_set_unit]
  exact Iff.rfl

/-- An index of the array lies in point `t`'s block iff, on each axis, it is within the block's extent from the block's offset. -/
theorem mem_blk5 (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_v2_1).slice (win1_5.rect t)).set ↔ _
  rw [View.set_slice_whole, Rect.mem_set_unit]
  exact Iff.rfl

/-- After the region the second support holds `relu (adj · s₁ + b1) · W15`: the fifty blocks of 200 rows cover it. -/
theorem final4 (c : Dev nD) :
    (dat1 V c).arrAt 4 cfg1.N = hidden (V c main_arg1 : S10000x10000.Idx → EReal) (V c main_v0 : S10000x64.Idx → EReal)
        (rowVec (V c main_v1 : S1x64.Idx → EReal)) (V c main_arg4 : S64x128.Idx → EReal) :=
  (dat1 V c).arrAt_eq_of_cover 4 _ (fun t _ => flushed4_eq V c t) fun i => by
    have h0 : (i 0).val < 10000 := (i 0).isLt
    have h1 : (i 1).val < 128 := (i 1).isLt
    refine ⟨⟨(i 0).val / 200, by show _ < 50; omega⟩, flush1_4 _, ?_⟩
    rw [mem_blk4]
    obtain ⟨a0, a1, s0, s1, b0, b1, w0, w1, o0, o1, c0, c1⟩ := idx ⟨(i 0).val / 200, by show _ < 50; omega⟩
    intro a
    match a with
    | ⟨0, _⟩ => show win1_4.index _ (0 : Fin 2) * 200 ≤ (i 0).val ∧ (i 0).val < win1_4.index _ (0 : Fin 2) * 200 + 200; rw [o0]; show (i 0).val / 200 * 200 ≤ _ ∧ _ < (i 0).val / 200 * 200 + 200; omega
    | ⟨1, _⟩ => show win1_4.index _ (1 : Fin 2) * 128 ≤ (i 1).val ∧ (i 1).val < win1_4.index _ (1 : Fin 2) * 128 + 128; rw [o1]; omega

/-- After the region the copy holds `adj`. -/
theorem final5 (c : Dev nD) : (dat1 V c).arrAt 5 cfg1.N = (V c main_arg1 : S10000x10000.Idx → EReal) :=
  (dat1 V c).arrAt_eq_of_cover 5 _ (fun t _ => flushed5_eq V c t) fun i => by
    have h0 : (i 0).val < 10000 := (i 0).isLt
    have h1 : (i 1).val < 10000 := (i 1).isLt
    refine ⟨⟨(i 0).val / 200, by show _ < 50; omega⟩, flush1_5 _, ?_⟩
    rw [mem_blk5]
    obtain ⟨a0, a1, s0, s1, b0, b1, w0, w1, o0, o1, c0, c1⟩ := idx ⟨(i 0).val / 200, by show _ < 50; omega⟩
    intro a
    match a with
    | ⟨0, _⟩ => show win1_5.index _ (0 : Fin 2) * 200 ≤ (i 0).val ∧ (i 0).val < win1_5.index _ (0 : Fin 2) * 200 + 200; rw [c0]; show (i 0).val / 200 * 200 ≤ _ ∧ _ < (i 0).val / 200 * 200 + 200; omega
    | ⟨1, _⟩ => show win1_5.index _ (1 : Fin 2) * 10000 ≤ (i 1).val ∧ (i 1).val < win1_5.index _ (1 : Fin 2) * 10000 + 10000; rw [c1]; omega

end Cert.KernelIdeal.Region1

end
-- ==== Proof.Region2.lean ====
import proofs.«158082_g42769284334190_cont_sun_m_162_2_alg».proof.Proof.Gen.KernelIdeal.Frame
import proofs.«158082_g42769284334190_cont_sun_m_162_2_alg».proof.Proof.GcnSpec
import Idealize.ShloMosaic.Lib.Pipeline.Value

/-!
# The third pallas_call: the second layer and the third layer's support

Grid point `t` takes rows `200 t … 200 t + 199` of the adjacency's copy and the whole of the second support `s₂`, of the
bias row and of `W2`; it writes the same rows of `relu (adj · s₂ + b15) · W2`.
-/

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.RowTile Cert.Gcn

variable (V : (c : Dev nD) → (b : Ref sig .tc) → Buf (Elt Ideal) ((c : Thread nD τ).loc b))

/-- The stored tile of the third support. -/
theorem pay (x0 : Vec Ideal S200x10000 .bf16) (x1 : Vec Ideal S10000x128 .bf16) (x2 : Vec Ideal S1x128 .f32) (x3 : Vec Ideal S128x128 .f32) :
    k2_pay1 x0 x1 x2 x3 = hidden (x0 : S200x10000.Idx → EReal) (x1 : S10000x128.Idx → EReal) (rowVec (x2 : S1x128.Idx → EReal)) (x3 : S128x128.Idx → EReal) := by
  unfold k2_pay1
  simp only [shapeCast_self]
  exact hidden_unit (φ₁ := .bf16) (φ₂ := .bf16) (φ₃ := .bf16) (ψ := .bf16) _ ⟨rfl, rfl, rfl, rfl, rfl, rfl⟩ _ ⟨rfl, rfl, rfl, rfl, rfl, rfl⟩ none none x0 x1 x2 x3 _ _

/-- The printed index maps over the grid: the row-tiled windows sit at block `(t, 0)`, the others at `(0, 0)`. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the tile of adjacency rows at point `t` is row `200 t + p` of the array. -/
theorem blk_rows (c : Dev nD) (t : Fin cfg2.N) (p : Fin 200) (k : Fin 10000) (r : Fin 10000) (hr : r.val = 200 * t.val + p.val) :
    iblk2 V c 0 t (ix2 p k) = (V c main_v2_1 : S10000x10000.Idx → EReal) (ix2 r k) := by
  obtain ⟨a0, a1, s0, s1, b0, b1, w0, w1, o0, o1⟩ := idx t
  show (V c main_v2_1 : S10000x10000.Idx → EReal) (((cfg2.win 0).blk t).view.emb (ix2 p k)) = _
  refine congrArg _ (funext fun a => Fin.ext ?_)
  match a with
  | ⟨0, _⟩ => show win2_0.index t (0 : Fin 2) * 200 + 1 * p.val = r.val; rw [a0, hr]; omega
  | ⟨1, _⟩ => show win2_0.index t (1 : Fin 2) * 10000 + 1 * k.val = k.val; rw [a1]; omega

/-- The support's block is the whole of `s₂` at every point. -/
theorem blk_1 (c : Dev nD) (t : Fin cfg2.N) : iblk2 V c 1 t = (V c main_v2_0 : S10000x128.Idx → EReal) := by
  obtain ⟨a0, a1, s0, s1, b0, b1, w0, w1, o0, o1⟩ := idx t
  funext y
  show (V c main_v2_0 : S10000x128.Idx → EReal) (((cfg2.win 1).blk t).view.emb y) = _
  refine congrArg _ (funext fun a => Fin.ext ?_)
  match a with
  | ⟨0, _⟩ => show win2_1.index t (0 : Fin 2) * 10000 + 1 * (y 0).val = (y 0).val; rw [s0]; omega
  | ⟨1, _⟩ => show win2_1.index t (1 : Fin 2) * 128 + 1 * (y 1).val = (y 1).val; rw [s1]; omega

/-- The bias row's block is the whole row at every point. -/
theorem blk_2 (c : Dev nD) (t : Fin cfg2.N) : iblk2 V c 2 t = (V c main_v3 : S1x128.Idx → EReal) := by
  obtain ⟨a0, a1, s0, s1, b0, b1, w0, w1, o0, o1⟩ := idx t
  funext y
  show (V c main_v3 : S1x128.Idx → EReal) (((cfg2.win 2).blk t).view.emb y) = _
  refine congrArg _ (funext fun a => Fin.ext ?_)
  match a with
  | ⟨0, _⟩ => show win2_2.index t (0 : Fin 2) * 1 + 1 * (y 0).val = (y 0).val; rw [b0]; omega
  | ⟨1, _⟩ => show win2_2.index t (1 : Fin 2) * 128 + 1 * (y 1).val = (y 1).val; rw [b1]; omega

/-- The weights' block is the whole of `W2` at every point. -/
theorem blk_3 (c : Dev nD) (t : Fin cfg2.N) : iblk2 V c 3 t = (V c main_arg6 : S128x128.Idx → EReal) := by
  obtain ⟨a0, a1, s0, s1, b0, b1, w0, w1, o0, o1⟩ := idx t
  funext y
  show (V c main_arg6 : S128x128.Idx → EReal) (((cfg2.win 3).blk t).view.emb y) = _
  refine congrArg _ (funext fun a => Fin.ext ?_)
  match a with
  | ⟨0, _⟩ => show win2_3.index t (0 : Fin 2) * 128 + 1 * (y 0).val = (y 0).val; rw [w0]; omega
  | ⟨1, _⟩ => show win2_3.index t (1 : Fin 2) * 128 + 1 * (y 1).val = (y 1).val; rw [w1]; omega

/-- Entry `(p, q)` of the output's block at point `t` sits at `(200 t + p, q)` of the array. -/
theorem out_emb (t : Fin cfg2.N) (p : Fin 200) (q : Fin 128) (r : Fin 10000) (hr : r.val = 200 * t.val + p.val) :
    ((cfg2.win 4).blk t).view.emb (ix2 p q) = (ix2 r q : S10000x128.Idx) := by
  obtain ⟨a0, a1, s0, s1, b0, b1, w0, w1, o0, o1⟩ := idx t
  refine funext fun a => Fin.ext ?_
  match a with
  | ⟨0, _⟩ => show win2_4.index t (0 : Fin 2) * 200 + 1 * p.val = r.val; rw [o0, hr]; omega
  | ⟨1, _⟩ => show win2_4.index t (1 : Fin 2) * 128 + 1 * q.val = q.val; rw [o1]; omega

/-- What point `t` writes back is its block of `relu (adj · s₂ + b15) · W2`. -/
theorem flushed_eq (c : Dev nD) (t : Fin cfg2.N) :
    (dat2 V c).flushed 4 t = ((cfg2.win 4).blk t).view.read (Elt Ideal)
      (hidden (V c main_v2_1 : S10000x10000.Idx → EReal) (V c main_v2_0 : S10000x128.Idx → EReal)
        (rowVec (V c main_v3 : S1x128.Idx → EReal)) (V c main_arg6 : S128x128.Idx → EReal)) := by
  show (cfg2.win 4).cut (grid2.coords t) ((dat2 V c).after 4 t) = _
  rw [after2_4]
  unfold out2_4
  rw [View.canon_unit_zero zeros2]
  simp only [View.ld_unit_zero (S := S200x10000) zeros2, View.ld_unit_zero (S := S10000x128) zeros2,
    View.ld_unit_zero (S := S1x128) zeros2, View.ld_unit_zero (S := S128x128) zeros2]
  rw [pay, blk_1 V c t, blk_2 V c t, blk_3 V c t]
  funext j
  obtain ⟨p, q, rfl⟩ : ∃ (p : Fin 200) (q : Fin 128), j = ix2 p q := ⟨j 0, j 1, eq_ix2 j⟩
  have ht : t.val < 50 := t.isLt
  show hidden (iblk2 V c 0 t) (V c main_v2_0 : S10000x128.Idx → EReal) (rowVec (V c main_v3 : S1x128.Idx → EReal))
      (V c main_arg6 : S128x128.Idx → EReal) (ix2 p q)
    = hidden (V c main_v2_1 : S10000x10000.Idx → EReal) (V c main_v2_0 : S10000x128.Idx → EReal)
      (rowVec (V c main_v3 : S1x128.Idx → EReal)) (V c main_arg6 : S128x128.Idx → EReal) (((cfg2.win 4).blk t).view.emb (ix2 p q))
  rw [out_emb t p q ⟨200 * t.val + p.val, by omega⟩ rfl]
  exact hidden_row _ _ _ _ _ p _ (fun k => blk_rows V c t p k _ rfl) q

/-- An index of the array lies in point `t`'s block iff, on each axis, it is within the block's extent from the block's offset. -/
theorem mem_blk (t : Fin cfg2.N) (i : S10000x128.Idx) :
    i ∈ ((cfg2.win 4).blk t).view.set ↔ ∀ a : Fin 2, win2_4.index t a * S200x128.size a ≤ (i a).val ∧ (i a).val < win2_4.index t a * S200x128.size a + S200x128.size a := by
  show i ∈ ((View.whole main_v4).slice (win2_4.rect t)).set ↔ _
  rw [View.set_slice_whole, Rect.mem_set_unit]
  exact Iff.rfl

/-- After the region the third support holds `relu (adj · s₂ + b15) · W2`: the fifty blocks of 200 rows cover it. -/
theorem final (c : Dev nD) :
    (dat2 V c).arrAt 4 cfg2.N = hidden (V c main_v2_1 : S10000x10000.Idx → EReal) (V c main_v2_0 : S10000x128.Idx → EReal)
        (rowVec (V c main_v3 : S1x128.Idx → EReal)) (V c main_arg6 : S128x128.Idx → EReal) :=
  (dat2 V c).arrAt_eq_of_cover 4 _ (fun t _ => flushed_eq V c t) fun i => by
    have h0 : (i 0).val < 10000 := (i 0).isLt
    have h1 : (i 1).val < 128 := (i 1).isLt
    refine ⟨⟨(i 0).val / 200, by show _ < 50; omega⟩, flush2_4 _, ?_⟩
    rw [mem_blk]
    obtain ⟨a0, a1, s0, s1, b0, b1, w0, w1, o0, o1⟩ := idx ⟨(i 0).val / 200, by show _ < 50; omega⟩
    intro a
    match a with
    | ⟨0, _⟩ => show win2_4.index _ (0 : Fin 2) * 200 ≤ (i 0).val ∧ (i 0).val < win2_4.index _ (0 : Fin 2) * 200 + 200; rw [o0]; show (i 0).val / 200 * 200 ≤ _ ∧ _ < (i 0).val / 200 * 200 + 200; omega
    | ⟨1, _⟩ => show win2_4.index _ (1 : Fin 2) * 128 ≤ (i 1).val ∧ (i 1).val < win2_4.index _ (1 : Fin 2) * 128 + 128; rw [o1]; omega

end Cert.KernelIdeal.Region2

end
-- ==== Proof.Region3.lean ====
import proofs.«158082_g42769284334190_cont_sun_m_162_2_alg».proof.Proof.Gen.KernelIdeal.Frame
import proofs.«158082_g42769284334190_cont_sun_m_162_2_alg».proof.Proof.GcnSpec
import Idealize.ShloMosaic.Lib.Pipeline.Value

/-!
# The fourth pallas_call: the output layer

Grid point `t` takes rows `200 t … 200 t + 199` of the adjacency's copy and the whole of the third support `s₃` and of
the bias row; it writes the same rows of `adj · s₃ + b2`.
-/

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.RowTile Cert.Gcn

variable (V : (c : Dev nD) → (b : Ref sig .tc) → Buf (Elt Ideal) ((c : Thread nD τ).loc b))

/-- The stored tile of the output. -/
theorem pay (x0 : Vec Ideal S200x10000 .bf16) (x1 : Vec Ideal S10000x128 .bf16) (x2 : Vec Ideal S1x128 .f32) :
    k3_pay1 x0 x1 x2 = last (x0 : S200x10000.Idx → EReal) (x1 : S10000x128.Idx → EReal) (rowVec (x2 : S1x128.Idx → EReal)) := by
  unfold k3_pay1
  simp only [shapeCast_self]
  exact last_unit (φ₁ := .bf16) (φ₂ := .bf16) _ ⟨rfl, rfl, rfl, rfl, rfl, rfl⟩ none x0 x1 x2 _

/-- The printed index maps over the grid: the row-tiled windows sit at block `(t, 0)`, the others at `(0, 0)`. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the tile of adjacency rows at point `t` is row `200 t + p` of the array. -/
theorem blk_rows (c : Dev nD) (t : Fin cfg3.N) (p : Fin 200) (k : Fin 10000) (r : Fin 10000) (hr : r.val = 200 * t.val + p.val) :
    iblk3 V c 0 t (ix2 p k) = (V c main_v2_1 : S10000x10000.Idx → EReal) (ix2 r k) := by
  obtain ⟨a0, a1, s0, s1, b0, b1, o0, o1⟩ := idx t
  show (V c main_v2_1 : S10000x10000.Idx → EReal) (((cfg3.win 0).blk t).view.emb (ix2 p k)) = _
  refine congrArg _ (funext fun a => Fin.ext ?_)
  match a with
  | ⟨0, _⟩ => show win3_0.index t (0 : Fin 2) * 200 + 1 * p.val = r.val; rw [a0, hr]; omega
  | ⟨1, _⟩ => show win3_0.index t (1 : Fin 2) * 10000 + 1 * k.val = k.val; rw [a1]; omega

/-- The support's block is the whole of `s₃` at every point. -/
theorem blk_1 (c : Dev nD) (t : Fin cfg3.N) : iblk3 V c 1 t = (V c main_v4 : S10000x128.Idx → EReal) := by
  obtain ⟨a0, a1, s0, s1, b0, b1, o0, o1⟩ := idx t
  funext y
  show (V c main_v4 : S10000x128.Idx → EReal) (((cfg3.win 1).blk t).view.emb y) = _
  refine congrArg _ (funext fun a => Fin.ext ?_)
  match a with
  | ⟨0, _⟩ => show win3_1.index t (0 : Fin 2) * 10000 + 1 * (y 0).val = (y 0).val; rw [s0]; omega
  | ⟨1, _⟩ => show win3_1.index t (1 : Fin 2) * 128 + 1 * (y 1).val = (y 1).val; rw [s1]; omega

/-- The bias row's block is the whole row at every point. -/
theorem blk_2 (c : Dev nD) (t : Fin cfg3.N) : iblk3 V c 2 t = (V c main_v5 : S1x128.Idx → EReal) := by
  obtain ⟨a0, a1, s0, s1, b0, b1, o0, o1⟩ := idx t
  funext y
  show (V c main_v5 : S1x128.Idx → EReal) (((cfg3.win 2).blk t).view.emb y) = _
  refine congrArg _ (funext fun a => Fin.ext ?_)
  match a with
  | ⟨0, _⟩ => show win3_2.index t (0 : Fin 2) * 1 + 1 * (y 0).val = (y 0).val; rw [b0]; omega
  | ⟨1, _⟩ => show win3_2.index t (1 : Fin 2) * 128 + 1 * (y 1).val = (y 1).val; rw [b1]; omega

/-- Entry `(p, q)` of the output's block at point `t` sits at `(200 t + p, q)` of the array. -/
theorem out_emb (t : Fin cfg3.N) (p : Fin 200) (q : Fin 128) (r : Fin 10000) (hr : r.val = 200 * t.val + p.val) :
    ((cfg3.win 3).blk t).view.emb (ix2 p q) = (ix2 r q : S10000x128.Idx) := by
  obtain ⟨a0, a1, s0, s1, b0, b1, o0, o1⟩ := idx t
  refine funext fun a => Fin.ext ?_
  match a with
  | ⟨0, _⟩ => show win3_3.index t (0 : Fin 2) * 200 + 1 * p.val = r.val; rw [o0, hr]; omega
  | ⟨1, _⟩ => show win3_3.index t (1 : Fin 2) * 128 + 1 * q.val = q.val; rw [o1]; omega

/-- What point `t` writes back is its block of `adj · s₃ + b2`. -/
theorem flushed_eq (c : Dev nD) (t : Fin cfg3.N) :
    (dat3 V c).flushed 3 t = ((cfg3.win 3).blk t).view.read (Elt Ideal)
      (last (V c main_v2_1 : S10000x10000.Idx → EReal) (V c main_v4 : S10000x128.Idx → EReal)
        (rowVec (V c main_v5 : S1x128.Idx → EReal))) := by
  show (cfg3.win 3).cut (grid3.coords t) ((dat3 V c).after 3 t) = _
  rw [after3_3]
  unfold out3_3
  rw [View.canon_unit_zero zeros2]
  simp only [View.ld_unit_zero (S := S200x10000) zeros2, View.ld_unit_zero (S := S10000x128) zeros2,
    View.ld_unit_zero (S := S1x128) zeros2]
  rw [pay, blk_1 V c t, blk_2 V c t]
  funext j
  obtain ⟨p, q, rfl⟩ : ∃ (p : Fin 200) (q : Fin 128), j = ix2 p q := ⟨j 0, j 1, eq_ix2 j⟩
  have ht : t.val < 50 := t.isLt
  show last (iblk3 V c 0 t) (V c main_v4 : S10000x128.Idx → EReal) (rowVec (V c main_v5 : S1x128.Idx → EReal)) (ix2 p q)
    = last (V c main_v2_1 : S10000x10000.Idx → EReal) (V c main_v4 : S10000x128.Idx → EReal)
      (rowVec (V c main_v5 : S1x128.Idx → EReal)) (((cfg3.win 3).blk t).view.emb (ix2 p q))
  rw [out_emb t p q ⟨200 * t.val + p.val, by omega⟩ rfl]
  exact last_row _ _ _ _ p _ (fun k => blk_rows V c t p k _ rfl) q

/-- An index of the array lies in point `t`'s block iff, on each axis, it is within the block's extent from the block's offset. -/
theorem mem_blk (t : Fin cfg3.N) (i : S10000x128.Idx) :
    i ∈ ((cfg3.win 3).blk t).view.set ↔ ∀ a : Fin 2, win3_3.index t a * S200x128.size a ≤ (i a).val ∧ (i a).val < win3_3.index t a * S200x128.size a + S200x128.size a := by
  show i ∈ ((View.whole main_v6).slice (win3_3.rect t)).set ↔ _
  rw [View.set_slice_whole, Rect.mem_set_unit]
  exact Iff.rfl

/-- After the region the result holds `adj · s₃ + b2`: the fifty blocks of 200 rows cover it. -/
theorem final (c : Dev nD) :
    (dat3 V c).arrAt 3 cfg3.N = last (V c main_v2_1 : S10000x10000.Idx → EReal) (V c main_v4 : S10000x128.Idx → EReal)
        (rowVec (V c main_v5 : S1x128.Idx → EReal)) :=
  (dat3 V c).arrAt_eq_of_cover 3 _ (fun t _ => flushed_eq V c t) fun i => by
    have h0 : (i 0).val < 10000 := (i 0).isLt
    have h1 : (i 1).val < 128 := (i 1).isLt
    refine ⟨⟨(i 0).val / 200, by show _ < 50; omega⟩, flush3_3 _, ?_⟩
    rw [mem_blk]
    obtain ⟨a0, a1, s0, s1, b0, b1, o0, o1⟩ := idx ⟨(i 0).val / 200, by show _ < 50; omega⟩
    intro a
    match a with
    | ⟨0, _⟩ => show win3_3.index _ (0 : Fin 2) * 200 ≤ (i 0).val ∧ (i 0).val < win3_3.index _ (0 : Fin 2) * 200 + 200; rw [o0]; show (i 0).val / 200 * 200 ≤ _ ∧ _ < (i 0).val / 200 * 200 + 200; omega
    | ⟨1, _⟩ => show win3_3.index _ (1 : Fin 2) * 128 ≤ (i 1).val ∧ (i 1).val < win3_3.index _ (1 : Fin 2) * 128 + 128; rw [o1]; omega

end Cert.KernelIdeal.Region3

end
-- ==== Proof.KernelValue.lean ====
import proofs.«158082_g42769284334190_cont_sun_m_162_2_alg».proof.Proof.Gen.KernelIdeal.Frame
import proofs.«158082_g42769284334190_cont_sun_m_162_2_alg».proof.Proof.Region0
import proofs.«158082_g42769284334190_cont_sun_m_162_2_alg».proof.Proof.Region1
import proofs.«158082_g42769284334190_cont_sun_m_162_2_alg».proof.Proof.Region2
import proofs.«158082_g42769284334190_cont_sun_m_162_2_alg».proof.Proof.Region3
import proofs.«158082_g42769284334190_cont_sun_m_162_2_alg».proof.Proof.GcnSpec
import Idealize.ShloMosaic.Lib.StableHlo.Run

/-!
# What the kernel program leaves in its result buffer

Between the pallas_calls only three reshapes run, each standing a bias vector up as a one-row array. Walking the
buffers from the launch to the return:

* after the first call the first support holds `x · W1`;
* after the second the second support holds `relu (adj · s₁ + b1) · W15` and the adjacency's copy holds `adj`;
* after the third the third support holds `relu (adj · s₂ + b15) · W2`;
* after the fourth the result holds `adj · s₃ + b2`,

every other buffer staying as it was. Composed, the result buffer holds `gcn3` of the eight arguments.
-/

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Layers Cert.RowTile Cert.Gcn

variable (m : (ℓ : Loc nD τ sig) → Buf (Elt Ideal) ℓ) (ρ : Dev nD → PrngReg) (c : Dev nD)

/-! ## After the first call -/

/-- A buffer that is no window's array of the first call is as launched. -/
theorem V1_of_ne (b : Ref sig .tc) (hb : ∀ w, Pipeline.arrRef spec0 w ≠ b) : V1 m ρ c b = m ((c : Thread nD τ).loc b) :=
  W1_of_ne m ρ c b hb

/-- The first support holds `x · W1`. -/
theorem V1_v0 : (V1 m ρ c main_v0 : S10000x64.Idx → EReal)
    = rowsTimes (m ((c : Thread nD τ).loc main_arg0) : S10000x128.Idx → EReal) (m ((c : Thread nD τ).loc main_arg2) : S128x64.Idx → EReal) :=
  (W1_arr m ρ c 2).trans (Region0.final (V0 m ρ) c)

/-! ## After the first reshape -/

theorem V2_of_ne (b : Ref sig .tc) (hb : b ≠ main_v1) : V2 m ρ c b = V1 m ρ c b := by
  show StableHlo.after hostOps1 (W1 m ρ c) (Proc.devRef .tc b) = W1 m ρ c (Proc.devRef .tc b)
  simp only [StableHlo.after_cons, StableHlo.after_nil]
  rw [StableHlo.reshape_result_ne]
  exact hb

/-- The first bias as a one-row array. -/
theorem V2_v1 : rowVec (V2 m ρ c main_v1 : S1x64.Idx → EReal) = (m ((c : Thread nD τ).loc main_arg3) : S64.Idx → EReal) := by
  have e : (V2 m ρ c main_v1 : S1x64.Idx → EReal)
      = shapeCast S1x64 (V1 m ρ c main_arg3 : S64.Idx → EReal) Cert.KernelIdeal.Gen.shapeCasts_S64_S1x64 := by
    show StableHlo.after hostOps1 (W1 m ρ c) (Proc.devRef .tc main_v1) = _
    after_results
    rfl
  rw [e, rowVec_shapeCast, V1_of_ne m ρ c main_arg3 (by decide)]

theorem V2_arg1 : V2 m ρ c main_arg1 = m ((c : Thread nD τ).loc main_arg1) :=
  (V2_of_ne m ρ c main_arg1 (by decide)).trans (V1_of_ne m ρ c main_arg1 (by decide))

theorem V2_arg4 : V2 m ρ c main_arg4 = m ((c : Thread nD τ).loc main_arg4) :=
  (V2_of_ne m ρ c main_arg4 (by decide)).trans (V1_of_ne m ρ c main_arg4 (by decide))

theorem V2_v0 : (V2 m ρ c main_v0 : S10000x64.Idx → EReal)
    = rowsTimes (m ((c : Thread nD τ).loc main_arg0) : S10000x128.Idx → EReal) (m ((c : Thread nD τ).loc main_arg2) : S128x64.Idx → EReal) :=
  (V2_of_ne m ρ c main_v0 (by decide)).trans (V1_v0 m ρ c)

/-! ## After the second call -/

/-- The second support, as a function of the arguments. -/
abbrev s2 : S10000x128.Idx → EReal :=
  hidden (m ((c : Thread nD τ).loc main_arg1) : S10000x10000.Idx → EReal)
    (rowsTimes (m ((c : Thread nD τ).loc main_arg0) : S10000x128.Idx → EReal) (m ((c : Thread nD τ).loc main_arg2) : S128x64.Idx → EReal))
    (m ((c : Thread nD τ).loc main_arg3) : S64.Idx → EReal) (m ((c : Thread nD τ).loc main_arg4) : S64x128.Idx → EReal)

theorem V3_of_ne (b : Ref sig .tc) (hb : ∀ w, Pipeline.arrRef spec1 w ≠ b) : V3 m ρ c b = V2 m ρ c b :=
  W3_of_ne m ρ c b hb

theorem V3_v2_0 : (V3 m ρ c main_v2_0 : S10000x128.Idx → EReal) = s2 m c := by
  refine ((W3_arr m ρ c 4).trans (Region1.final4 (V2 m ρ) c)).trans ?_
  rw [V2_arg1, V2_v0, V2_v1, V2_arg4]

/-- The adjacency's copy holds the adjacency. -/
theorem V3_v2_1 : (V3 m ρ c main_v2_1 : S10000x10000.Idx → EReal) = (m ((c : Thread nD τ).loc main_arg1) : S10000x10000.Idx → EReal) :=
  ((W3_arr m ρ c 5).trans (Region1.final5 (V2 m ρ) c)).trans (V2_arg1 m ρ c)

theorem V3_arg (b : Ref sig .tc) (h0 : ∀ w, Pipeline.arrRef spec0 w ≠ b) (h1 : b ≠ main_v1) (h2 : ∀ w, Pipeline.arrRef spec1 w ≠ b) :
    V3 m ρ c b = m ((c : Thread nD τ).loc b) :=
  ((V3_of_ne m ρ c b h2).trans (V2_of_ne m ρ c b h1)).trans (V1_of_ne m ρ c b h0)

/-! ## After the second reshape -/

theorem V4_of_ne (b : Ref sig .tc) (hb : b ≠ main_v3) : V4 m ρ c b = V3 m ρ c b := by
  show StableHlo.after hostOps2 (W3 m ρ c) (Proc.devRef .tc b) = W3 m ρ c (Proc.devRef .tc b)
  simp only [StableHlo.after_cons, StableHlo.after_nil]
  rw [StableHlo.reshape_result_ne]
  exact hb

/-- The second bias as a one-row array. -/
theorem V4_v3 : rowVec (V4 m ρ c main_v3 : S1x128.Idx → EReal) = (m ((c : Thread nD τ).loc main_arg5) : S128.Idx → EReal) := by
  have e : (V4 m ρ c main_v3 : S1x128.Idx → EReal)
      = shapeCast S1x128 (V3 m ρ c main_arg5 : S128.Idx → EReal) Cert.KernelIdeal.Gen.shapeCasts_S128_S1x128 := by
    show StableHlo.after hostOps2 (W3 m ρ c) (Proc.devRef .tc main_v3) = _
    after_results
    rfl
  rw [e, rowVec_shapeCast, V3_arg m ρ c main_arg5 (by decide) (by decide) (by decide)]

theorem V4_v2_1 : (V4 m ρ c main_v2_1 : S10000x10000.Idx → EReal) = (m ((c : Thread nD τ).loc main_arg1) : S10000x10000.Idx → EReal) :=
  (V4_of_ne m ρ c main_v2_1 (by decide)).trans (V3_v2_1 m ρ c)

theorem V4_v2_0 : (V4 m ρ c main_v2_0 : S10000x128.Idx → EReal) = s2 m c :=
  (V4_of_ne m ρ c main_v2_0 (by decide)).trans (V3_v2_0 m ρ c)

theorem V4_arg (b : Ref sig .tc) (h0 : ∀ w, Pipeline.arrRef spec0 w ≠ b) (h1 : b ≠ main_v1) (h2 : ∀ w, Pipeline.arrRef spec1 w ≠ b)
    (h3 : b ≠ main_v3) : V4 m ρ c b = m ((c : Thread nD τ).loc b) :=
  (V4_of_ne m ρ c b h3).trans (V3_arg m ρ c b h0 h1 h2)

/-! ## After the third call -/

/-- The third support, as a function of the arguments. -/
abbrev s3 : S10000x128.Idx → EReal :=
  hidden (m ((c : Thread nD τ).loc main_arg1) : S10000x10000.Idx → EReal) (s2 m c)
    (m ((c : Thread nD τ).loc main_arg5) : S128.Idx → EReal) (m ((c : Thread nD τ).loc main_arg6) : S128x128.Idx → EReal)

theorem V5_of_ne (b : Ref sig .tc) (hb : ∀ w, Pipeline.arrRef spec2 w ≠ b) : V5 m ρ c b = V4 m ρ c b :=
  W5_of_ne m ρ c b hb

theorem V5_v4 : (V5 m ρ c main_v4 : S10000x128.Idx → EReal) = s3 m c := by
  refine ((W5_arr m ρ c 4).trans (Region2.final (V4 m ρ) c)).trans ?_
  rw [V4_v2_1, V4_v2_0, V4_v3, V4_arg m ρ c main_arg6 (by decide) (by decide) (by decide) (by decide)]

/-- The third call reads the adjacency's copy and leaves it as it was. -/
theorem V5_v2_1 : (V5 m ρ c main_v2_1 : S10000x10000.Idx → EReal) = (m ((c : Thread nD τ).loc main_arg1) : S10000x10000.Idx → EReal) :=
  (((W5_arr m ρ c 0).trans ((dat2 (V4 m ρ) c).arrAt_in 0 rfl _)).trans (A_eq2 (V4 m ρ) c 0)).trans (V4_v2_1 m ρ c)

/-! ## After the third reshape -/

theorem V6_of_ne (b : Ref sig .tc) (hb : b ≠ main_v5) : V6 m ρ c b = V5 m ρ c b := by
  show StableHlo.after hostOps3 (W5 m ρ c) (Proc.devRef .tc b) = W5 m ρ c (Proc.devRef .tc b)
  simp only [StableHlo.after_cons, StableHlo.after_nil]
  rw [StableHlo.reshape_result_ne]
  exact hb

/-- The third bias as a one-row array. -/
theorem V6_v5 : rowVec (V6 m ρ c main_v5 : S1x128.Idx → EReal) = (m ((c : Thread nD τ).loc main_arg7) : S128.Idx → EReal) := by
  have e : (V6 m ρ c main_v5 : S1x128.Idx → EReal)
      = shapeCast S1x128 (V5 m ρ c main_arg7 : S128.Idx → EReal) Cert.KernelIdeal.Gen.shapeCasts_S128_S1x128 := by
    show StableHlo.after hostOps3 (W5 m ρ c) (Proc.devRef .tc main_v5) = _
    after_results
    rfl
  rw [e, rowVec_shapeCast, V5_of_ne m ρ c main_arg7 (by decide),
    V4_arg m ρ c main_arg7 (by decide) (by decide) (by decide) (by decide)]

/-! ## After the fourth call -/

/-- The result buffer holds the three-layer network of the arguments. -/
theorem result : (W7 m ρ c (Proc.devRef .tc main_v6) : S10000x128.Idx → EReal)
    = gcn3 (m ((c : Thread nD τ).loc main_arg0) : S10000x128.Idx → EReal) (m ((c : Thread nD τ).loc main_arg1) : S10000x10000.Idx → EReal)
        (m ((c : Thread nD τ).loc main_arg2) : S128x64.Idx → EReal) (m ((c : Thread nD τ).loc main_arg3) : S64.Idx → EReal)
        (m ((c : Thread nD τ).loc main_arg4) : S64x128.Idx → EReal) (m ((c : Thread nD τ).loc main_arg5) : S128.Idx → EReal)
        (m ((c : Thread nD τ).loc main_arg6) : S128x128.Idx → EReal) (m ((c : Thread nD τ).loc main_arg7) : S128.Idx → EReal) := by
  refine ((W7_arr m ρ c 3).trans (Region3.final (V6 m ρ) c)).trans ?_
  rw [V6_of_ne m ρ c main_v2_1 (by decide), V5_v2_1, V6_of_ne m ρ c main_v4 (by decide), V5_v4, V6_v5]
  rfl

end Cert.KernelIdeal.Whole

end
-- ==== Proof.RefValue.lean ====
import proofs.«158082_g42769284334190_cont_sun_m_162_2_alg».proof.Proof.Gen.ReferenceIdeal.Run
import proofs.«158082_g42769284334190_cont_sun_m_162_2_alg».proof.Proof.GcnSpec

/-!
# The reference computes `gcn3`

Each `dot_general` of the reference is a rows-by-columns product, each bias is a vector made into rows by two
`broadcast_in_dim`, and each `relu` is the maximum with an array of zeros: the reference's composed term is `gcn3` of
its arguments, step for step.
-/

noncomputable section

namespace Cert.ReferenceIdeal.RefValue

open Cert.ReferenceIdeal Cert.ReferenceIdeal.Gen Idealize.ShloMosaic Idealize.ShloMosaic.ValueIdx Cert.Layers Cert.Gcn

theorem result_eq (x : FVec Ideal S10000x128 .f32) (adj : FVec Ideal S10000x10000 .f32) (W1 : FVec Ideal S128x64 .f32)
    (b1 : FVec Ideal S64 .f32) (W15 : FVec Ideal S64x128 .f32) (b15 : FVec Ideal S128 .f32) (W2 : FVec Ideal S128x128 .f32)
    (b2 : FVec Ideal S128 .f32) :
    addf (Host.dotGeneral dot_S10000x10000_S10000x128_S10000x128_1_0_0_1_n_n none adj
      (Host.dotGeneral dot_S10000x128_S128x128_S10000x128_1_0_0_1_n_n none
        (maximumf (addf (Host.dotGeneral dot_S10000x10000_S10000x128_S10000x128_1_0_0_1_n_n none adj
            (Host.dotGeneral dot_S10000x64_S64x128_S10000x128_1_0_0_1_n_n none
              (maximumf (addf (Host.dotGeneral dot_S10000x10000_S10000x64_S10000x64_1_0_0_1_n_n none adj
                  (Host.dotGeneral dot_S10000x128_S128x64_S10000x64_1_0_0_1_n_n none x W1))
                (broadcastInDim S10000x64 ![0, 1] bcast_S1x64_S10000x64_0_1 (broadcastInDim S1x64 ![1] bcast_S64_S1x64_1 b1)))
                (broadcastInDim S10000x64 ![] bcast_S_S10000x64 (constant S_ .f32 0x00000000#32))) W15))
          (broadcastInDim S10000x128 ![0, 1] bcast_S1x128_S10000x128_0_1 (broadcastInDim S1x128 ![1] bcast_S128_S1x128_1 b15)))
          (broadcastInDim S10000x128 ![] bcast_S_S10000x128 (constant S_ .f32 0x00000000#32))) W2))
      (broadcastInDim S10000x128 ![0, 1] bcast_S1x128_S10000x128_0_1 (broadcastInDim S1x128 ![1] bcast_S128_S1x128_1 b2))
    = gcn3 x adj W1 b1 W15 b15 W2 b2 := by
  simp only [Host.dotGeneral]
  rw [addf_rows_of_vector,
    maximumf_addf_rows_of_vector _ _ _ _ _ (zeros_apply _ _),
    maximumf_addf_rows_of_vector _ _ _ _ _ (zeros_apply _ _),
    dotGeneral_eq _ ⟨rfl, rfl, rfl, rfl, rfl, rfl⟩, dotGeneral_eq _ ⟨rfl, rfl, rfl, rfl, rfl, rfl⟩,
    dotGeneral_eq _ ⟨rfl, rfl, rfl, rfl, rfl, rfl⟩, dotGeneral_eq _ ⟨rfl, rfl, rfl, rfl, rfl, rfl⟩,
    dotGeneral_eq _ ⟨rfl, rfl, rfl, rfl, rfl, rfl⟩, dotGeneral_eq _ ⟨rfl, rfl, rfl, rfl, rfl, rfl⟩]
  rfl

end Cert.ReferenceIdeal.RefValue

end
-- ==== Proof.lean ====
/-
  The kernel is a three-layer graph convolution with a dense `[10000, 10000]` adjacency, in four pallas_calls over
  tiles of 200 rows: the first layer's support `x · W1`; then, per layer, `adj · support + bias` (with the positive part
  and the next layer's weights fused in for the first two layers). It keeps a copy of the adjacency and the supports in
  a narrower float format; over the extended reals a change of format is the identity, so the kernel computes

    out = adj · (relu (adj · (relu (adj · (x · W1) + b1) · W15) + b15) · W2) + b2,

  which is what the reference computes with whole-array products. No law of arithmetic is needed beyond this: each
  entry of a product depends on one row of its left operand only, so computing it tile of rows by tile of rows gives the
  same entries (Proof/GcnSpec.lean `hidden_row`, `last_row`); both sides are then the one function `Gcn.gcn3` of the
  arguments, and the precondition is never opened.

  Proof/Region0 … Region3: what each pallas_call leaves in its output arrays, as whole-array functions of what it finds.
  Proof/KernelRun: the kernel program's run with the result buffer named. Proof/KernelValue: the buffers walked from the
  launch to the return. Proof/RefValue: the reference's composed term is `gcn3`.
-/
import proofs.«158082_g42769284334190_cont_sun_m_162_2_alg».proof.Defs
import proofs.«158082_g42769284334190_cont_sun_m_162_2_alg».proof.Proof.Gen.Kernel
import proofs.«158082_g42769284334190_cont_sun_m_162_2_alg».proof.Proof.Gen.Kernel.Skeleton
import proofs.«158082_g42769284334190_cont_sun_m_162_2_alg».proof.Proof.Gen.Kernel.Launch
import proofs.«158082_g42769284334190_cont_sun_m_162_2_alg».proof.Proof.Gen.Kernel.Points
import proofs.«158082_g42769284334190_cont_sun_m_162_2_alg».proof.Proof.Gen.Kernel.Frame
import proofs.«158082_g42769284334190_cont_sun_m_162_2_alg».proof.Proof.Gen.KernelIdeal
import proofs.«158082_g42769284334190_cont_sun_m_162_2_alg».proof.Proof.Gen.KernelIdeal.Skeleton
import proofs.«158082_g42769284334190_cont_sun_m_162_2_alg».proof.Proof.Gen.KernelIdeal.Launch
import proofs.«158082_g42769284334190_cont_sun_m_162_2_alg».proof.Proof.Gen.KernelIdeal.Points
import proofs.«158082_g42769284334190_cont_sun_m_162_2_alg».proof.Proof.Gen.KernelIdeal.Frame
import proofs.«158082_g42769284334190_cont_sun_m_162_2_alg».proof.Proof.Gen.ReferenceIdeal
import proofs.«158082_g42769284334190_cont_sun_m_162_2_alg».proof.Proof.Gen.ReferenceIdeal.Run
import proofs.«158082_g42769284334190_cont_sun_m_162_2_alg».proof.Proof.Gen.Pre_finite_inputs
import proofs.«158082_g42769284334190_cont_sun_m_162_2_alg».proof.Proof.KernelRun
import proofs.«158082_g42769284334190_cont_sun_m_162_2_alg».proof.Proof.KernelValue
import proofs.«158082_g42769284334190_cont_sun_m_162_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the three-layer network `gcn3` of the arguments in their result buffers. -/
theorem algebraic : Cert.algebraic_KernelIdeal_ReferenceIdeal := by
  intro m ρ m' ρ' _ hagree
  refine ⟨fun c => Cert.Gcn.gcn3
      (m ((c.tc : Thread Cert.KernelIdeal.nD Cert.KernelIdeal.τ).loc Cert.KernelIdeal.main_arg0) : Cert.KernelIdeal.S10000x128.Idx → EReal)
      (m ((c.tc : Thread Cert.KernelIdeal.nD Cert.KernelIdeal.τ).loc Cert.KernelIdeal.main_arg1) : Cert.KernelIdeal.S10000x10000.Idx → EReal)
      (m ((c.tc : Thread Cert.KernelIdeal.nD Cert.KernelIdeal.τ).loc Cert.KernelIdeal.main_arg2) : Cert.KernelIdeal.S128x64.Idx → EReal)
      (m ((c.tc : Thread Cert.KernelIdeal.nD Cert.KernelIdeal.τ).loc Cert.KernelIdeal.main_arg3) : Cert.KernelIdeal.S64.Idx → EReal)
      (m ((c.tc : Thread Cert.KernelIdeal.nD Cert.KernelIdeal.τ).loc Cert.KernelIdeal.main_arg4) : Cert.KernelIdeal.S64x128.Idx → EReal)
      (m ((c.tc : Thread Cert.KernelIdeal.nD Cert.KernelIdeal.τ).loc Cert.KernelIdeal.main_arg5) : Cert.KernelIdeal.S128.Idx → EReal)
      (m ((c.tc : Thread Cert.KernelIdeal.nD Cert.KernelIdeal.τ).loc Cert.KernelIdeal.main_arg6) : Cert.KernelIdeal.S128x128.Idx → EReal)
      (m ((c.tc : Thread Cert.KernelIdeal.nD Cert.KernelIdeal.τ).loc Cert.KernelIdeal.main_arg7) : Cert.KernelIdeal.S128.Idx → EReal), ?_, ?_⟩
  · exact (θ_run Cert.KernelIdeal.defs _ _).mono
      (fun r h c => ⟨(h c).1.trans (Cert.KernelIdeal.Whole.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [h0, h1, h2, h3, h4, h5, h6, h7]
    exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
